-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64x128 .f32) (main_arg9 : FVec F S64 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg5 : FVec F S128x128 .f32) (main_arg6 : FVec F S128 .f32) (main_arg7 : FVec F S128x128 .f32) (main_arg8 : FVec F S64x128 .f32) (main_arg9 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S64x128 .f32) (main_arg9 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S2000x128 : Shape := ⟨2, ![2000, 128]⟩
abbrev S128x64 : Shape := ⟨2, ![128, 64]⟩
abbrev S1x64 : Shape := ⟨2, ![1, 64]⟩
abbrev S50000x64 : Shape := ⟨2, ![50000, 64]⟩
abbrev S2000x64 : Shape := ⟨2, ![2000, 64]⟩

abbrev nBuf : Space → Nat
  | .hbm => 74
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S128x128, .f32⟩
  | .hbm, ⟨41, _⟩ => ⟨S1x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x128, .f32⟩
  | .hbm, ⟨67, _⟩ => ⟨S50000x128, .f32⟩
  | .hbm, ⟨68, _⟩ => ⟨S128x128, .f32⟩
  | .hbm, ⟨69, _⟩ => ⟨S128x128, .f32⟩
  | .hbm, ⟨70, _⟩ => ⟨S1x128, .f32⟩
  | .hbm, ⟨71, _⟩ => ⟨S128x64, .f32⟩
  | .hbm, ⟨72, _⟩ => ⟨S1x64, .f32⟩
  | .hbm, ⟨73, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S128x64, .f32⟩
  | .local _ .vmem, ⟨17, _⟩ => ⟨S1x64, .f32⟩
  | .local _ .vmem, ⟨18, _⟩ => ⟨S2000x64, .f32⟩
  | .local _ .vmem, ⟨19, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_4 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_7 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_9 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  transposes_S64x128_S128x64_1_0 : S64x128.Transposes [1, 0] S128x64
  shapeCasts_S64_S1x64 : S64.ShapeCasts S1x64
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S50000x128.size a
  hwx0_5 : ∀ i : grid0.Coords, EltTy.bits .f32 = 32 ∨ (Rect.block (s := S50000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S50000x64.size a
  hwx1_7 : ∀ i : grid1.Coords, EltTy.bits .f32 = 32 ∨ (Rect.block (s := S50000x64) S2000x64.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v47) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v49) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v51) S2000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 91
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .f32⟩
  | .hbm, ⟨24, _⟩ => ⟨S50000x128, .f32⟩
  | .hbm, ⟨25, _⟩ => ⟨S800000x1, .i32⟩
  | .hbm, ⟨26, _⟩ => ⟨S50000x128, .f32⟩
  | .hbm, ⟨27, _⟩ => ⟨S_, .f32⟩
  | .hbm, ⟨28, _⟩ => ⟨S800000, .f32⟩
  | .hbm, ⟨29, _⟩ => ⟨S_, .f32⟩
  | .hbm, ⟨30, _⟩ => ⟨S50000, .f32⟩
  | .hbm, ⟨31, _⟩ => ⟨S800000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S50000x128, .f32⟩
  | .hbm, ⟨39, _⟩ => ⟨S128x128, .f32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x128, .f32⟩
  | .hbm, ⟨44, _⟩ => ⟨S128x128, .f32⟩
  | .hbm, ⟨45, _⟩ => ⟨S50000x128, .f32⟩
  | .hbm, ⟨46, _⟩ => ⟨S50000x128, .f32⟩
  | .hbm, ⟨47, _⟩ => ⟨S_, .f32⟩
  | .hbm, ⟨48, _⟩ => ⟨S50000x128, .f32⟩
  | .hbm, ⟨49, _⟩ => ⟨S50000x128, .f32⟩
  | .hbm, ⟨50, _⟩ => ⟨S_, .i32⟩
  | .hbm, ⟨51, _⟩ => ⟨S800000, .i32⟩
  | .hbm, ⟨52, _⟩ => ⟨S800000, .i1⟩
  | .hbm, ⟨53, _⟩ => ⟨S_, .i32⟩
  | .hbm, ⟨54, _⟩ => ⟨S800000, .i32⟩
  | .hbm, ⟨55, _⟩ => ⟨S800000, .i32⟩
  | .hbm, ⟨56, _⟩ => ⟨S800000, .i32⟩
  | .hbm, ⟨57, _⟩ => ⟨S800000x1, .i32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S_, .f32⟩
  | .hbm, ⟨64, _⟩ => ⟨S800000, .f32⟩
  | .hbm, ⟨65, _⟩ => ⟨S_, .f32⟩
  | .hbm, ⟨66, _⟩ => ⟨S50000, .f32⟩
  | .hbm, ⟨67, _⟩ => ⟨S800000x1, .i32⟩
  | .hbm, ⟨68, _⟩ => ⟨S50000, .f32⟩
  | .hbm, ⟨69, _⟩ => ⟨S_, .f32⟩
  | .hbm, ⟨70, _⟩ => ⟨S50000, .f32⟩
  | .hbm, ⟨71, _⟩ => ⟨S50000, .f32⟩
  | .hbm, ⟨72, _⟩ => ⟨S50000x1, .f32⟩
  | .hbm, ⟨73, _⟩ => ⟨S50000x128, .f32⟩
  | .hbm, ⟨74, _⟩ => ⟨S50000x128, .f32⟩
  | .hbm, ⟨75, _⟩ => ⟨S128x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S128x128, .f32⟩
  | .hbm, ⟨81, _⟩ => ⟨S50000x128, .f32⟩
  | .hbm, ⟨82, _⟩ => ⟨S50000x128, .f32⟩
  | .hbm, ⟨83, _⟩ => ⟨S_, .f32⟩
  | .hbm, ⟨84, _⟩ => ⟨S50000x128, .f32⟩
  | .hbm, ⟨85, _⟩ => ⟨S50000x128, .f32⟩
  | .hbm, ⟨86, _⟩ => ⟨S128x64, .f32⟩
  | .hbm, ⟨87, _⟩ => ⟨S50000x64, .f32⟩
  | .hbm, ⟨88, _⟩ => ⟨S1x64, .f32⟩
  | .hbm, ⟨89, _⟩ => ⟨S50000x64, .f32⟩
  | .hbm, ⟨90, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_cst : Ref sig .tc := ⟨.hbm, 47, rfl⟩
abbrev main_call0_v0 : Ref sig .tc := ⟨.hbm, 48, rfl⟩
abbrev main_v31 : Ref sig .tc := ⟨.hbm, 49, rfl⟩
abbrev main_c_4 : Ref sig .tc := ⟨.hbm, 50, rfl⟩
abbrev main_v32 : Ref sig .tc := ⟨.hbm, 51, rfl⟩
abbrev main_v33 : Ref sig .tc := ⟨.hbm, 52, rfl⟩
abbrev main_c_5 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_cst_7 : Ref sig .tc := ⟨.hbm, 63, rfl⟩
abbrev main_v42 : Ref sig .tc := ⟨.hbm, 64, rfl⟩
abbrev main_cst_8 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.LibMatmulPlain.lean ====
/-
  A plain matrix product into a zero accumulator, read at an index, at the ideal values.

  For an m×k matrix A and a k×n matrix B the product into the zero accumulator has, at row a and column b, the entry
  ∑ c, A(a, c) · B(c, b): the accumulator contributes the extended real 0, and the contraction index of the plain
  dimension numbers is the one coordinate c. The host's product of the same two matrices is the same sum, so the
  statement follows from the library's reading of the host product.
-/
import Idealize.ShloMosaic.PureOps.Ideal.Laws
import Idealize.ShloMosaic.Lib.ValueIdx
import Idealize.ShloMosaic.Lib.StackMember

namespace Cert.LibMatmulPlain

open Idealize.ShloMosaic Idealize.ShloMosaic.ValueIdx

/-- A plain m×k by k×n product into the zero accumulator reads, at (a, b), the sum over the contracted coordinate c of
    A(a, c) · B(c, b). At the ideal values, whatever the formats of the two operands. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [← StackMember.dotGeneral_plain_apply prec A B a b]
  show FloatOps.matmul _ prec A B _ (ix2 a b) = FloatOps.dotGeneral _ prec _ A B (ix2 a b)
  rw [Ideal.matmul_constant_zero_apply, Ideal.dotGeneral_apply]

end Cert.LibMatmulPlain
-- ==== Proof.LibSageLayer.lean ====
/-
  One graph layer that adds a transformed aggregate to a transformed copy of the node features, with a bias and a
  rectifier, read at an index, at the ideal values.

  For an aggregate g and node features x (m rows, k columns each), two weight matrices Wl and Wr (k rows, n columns)
  and a bias β, the layer's value at row a and column q is

      max( (∑ c, g(a, c) · Wl(c, q)) + (∑ c, x(a, c) · Wr(c, q)) + β(q) , 0 ).

  Two spellings of it are read here and shown to be this one function. In the first, all four matrices are rounded to a
  narrower format (which, at the ideal values, changes nothing), the two products are formed into zero accumulators and
  added, then the one bias row is broadcast over the rows and added, and the maximum with a splat zero is taken. In the
  second, the host's product g · Wl receives the bias (a vector made a row, then broadcast over the rows) BEFORE the
  second product x · Wr is added, and the maximum with a broadcast scalar zero is taken. The two orders of the three
  summands agree because addition of extended reals is commutative and associative; no summand has to be finite.
  A block of consecutive rows of the layer's value is the layer applied to the same rows of g and of x.
-/
import Idealize.ShloMosaic.PureOps.Ideal.Laws
import Idealize.ShloMosaic.Lib.ValueIdx
import Idealize.ShloMosaic.Lib.ValueLayout
import Idealize.ShloMosaic.Lib.StackMember
import Idealize.ShloMosaic.Lib.Pipeline.Value
import proofs.«146561_j61065845015011_1_alg».proof.Proof.LibMatmulPlain

noncomputable section

namespace Cert.LibSageLayer

open Idealize.ShloMosaic Idealize.ShloMosaic.ValueIdx

variable {m k n : Nat}

/-- The layer: at row a and column q, the two sums over c plus the bias at column q, or zero if that is negative. -/
def sage (g x : FVec Ideal ⟨2, ![m, k]⟩ .f32) (Wl Wr : FVec Ideal ⟨2, ![k, n]⟩ .f32) (β : Fin n → EReal) :
    FVec Ideal ⟨2, ![m, n]⟩ .f32 :=
  fun i => max (((∑ c : Fin k, g (ix2 (show Fin m from i 0) c) * Wl (ix2 c (show Fin n from i 1)))
      + (∑ c : Fin k, x (ix2 (show Fin m from i 0) c) * Wr (ix2 c (show Fin n from i 1))))
      + β (show Fin n from i 1)) (Ideal.ofBits .f32 0x00000000#32)

theorem sage_apply (g x : FVec Ideal ⟨2, ![m, k]⟩ .f32) (Wl Wr : FVec Ideal ⟨2, ![k, n]⟩ .f32) (β : Fin n → EReal)
    (a : Fin m) (q : Fin n) :
    sage g x Wl Wr β (ix2 a q)
      = max (((∑ c : Fin k, g (ix2 a c) * Wl (ix2 c q)) + (∑ c : Fin k, x (ix2 a c) * Wr (ix2 c q))) + β q)
          (Ideal.ofBits .f32 0x00000000#32) := rfl

/-- The first spelling: the four matrices rounded to bf16, the two products into zero accumulators added, the bias row
    broadcast over the rows and added, the maximum with a splat zero. -/
theorem body_eq_sage (D : DotDims ⟨2, ![m, k]⟩ ⟨2, ![k, n]⟩ ⟨2, ![m, n]⟩) (hD : D = DotDims.plain m k n)
    (hbits : FTy.bits .bf16 < FTy.bits .f32)
    (hb : (⟨2, ![1, n]⟩ : Shape).Broadcasts ⟨2, ![m, n]⟩)
    (G X : FVec Ideal ⟨2, ![m, k]⟩ .f32) (Wl Wr : FVec Ideal ⟨2, ![k, n]⟩ .f32) (bias : FVec Ideal ⟨2, ![1, n]⟩ .f32) :
    maximumf
        (addf
          (addf
            (matmul D none (truncf .bf16 G hbits) (truncf .bf16 Wl hbits) (constant (F := Ideal) ⟨2, ![m, n]⟩ .f32 0x00000000#32))
            (matmul D none (truncf .bf16 X hbits) (truncf .bf16 Wr hbits) (constant (F := Ideal) ⟨2, ![m, n]⟩ .f32 0x00000000#32)))
          (broadcastTo ⟨2, ![m, n]⟩ bias hb))
        (broadcast ⟨2, ![m, n]⟩ (Scalar.ofBits (F := Ideal) .f32 0x00000000#32))
      = sage G X Wl Wr (fun q => bias (ix2 (0 : Fin 1) q)) := by
  subst hD
  funext j
  obtain ⟨a, q, rfl⟩ : ∃ (a : Fin m) (q : Fin n), j = ix2 a q := ⟨j 0, j 1, eq_ix2 j⟩
  rw [sage_apply, maximumf_apply, addf_apply, addf_apply, Cert.LibMatmulPlain.matmul_plain_zero_apply,
    Cert.LibMatmulPlain.matmul_plain_zero_apply, broadcastTo_1b_ab_apply]
  rfl

/-- The second spelling: the host's product of the aggregate plus the bias (a vector made a row, then broadcast over
    the rows), then the host's product of the node features added, the maximum with a broadcast scalar zero. The three
    summands meet the layer's in another order: commutativity and associativity of the sum. -/
theorem host_eq_sage (D : DotDims ⟨2, ![m, k]⟩ ⟨2, ![k, n]⟩ ⟨2, ![m, n]⟩) (hD : D = DotDims.plain m k n)
    (h0 : (⟨0, ![]⟩ : Shape).BroadcastsInDim ⟨2, ![m, n]⟩ ![])
    (h1 : (⟨1, ![n]⟩ : Shape).BroadcastsInDim ⟨2, ![1, n]⟩ ![1])
    (h2 : (⟨2, ![1, n]⟩ : Shape).BroadcastsInDim ⟨2, ![m, n]⟩ ![0, 1])
    (G X : FVec Ideal ⟨2, ![m, k]⟩ .f32) (Wl Wr : FVec Ideal ⟨2, ![k, n]⟩ .f32) (b : FVec Ideal ⟨1, ![n]⟩ .f32) :
    maximumf
        (addf
          (addf (Host.dotGeneral D none G Wl)
            (broadcastInDim ⟨2, ![m, n]⟩ ![0, 1] h2 (broadcastInDim ⟨2, ![1, n]⟩ ![1] h1 b)))
          (Host.dotGeneral D none X Wr))
        (broadcastInDim ⟨2, ![m, n]⟩ ![] h0 (constant (F := Ideal) ⟨0, ![]⟩ .f32 0x00000000#32))
      = sage G X Wl Wr (fun q => b (ix1 q)) := by
  subst hD
  funext j
  obtain ⟨a, q, rfl⟩ : ∃ (a : Fin m) (q : Fin n), j = ix2 a q := ⟨j 0, j 1, eq_ix2 j⟩
  rw [sage_apply, maximumf_apply, addf_apply, addf_apply, StackMember.dotGeneral_plain_apply,
    StackMember.dotGeneral_plain_apply]
  have hbias : broadcastInDim ⟨2, ![m, n]⟩ ![0, 1] h2 (broadcastInDim ⟨2, ![1, n]⟩ ![1] h1 b) (ix2 a q) = b (ix1 q) := by
    rw [broadcastInDim_apply ![0, 1] h2 _ (ix2 a q) (ix2 (0 : Fin 1) q) (fun ax => by
      match ax with
      | ⟨0, _⟩ => show (0 : Nat) = if (1 : Nat) = 1 then 0 else a.val; rw [if_pos rfl]
      | ⟨1, _⟩ =>
        show q.val = if n = 1 then 0 else q.val
        split
        · have := q.isLt; omega
        · rfl)]
    exact broadcastInDim_apply ![1] h1 b (ix2 (0 : Fin 1) q) (ix1 q) (fun ax => by
      match ax with
      | ⟨0, _⟩ =>
        show q.val = if n = 1 then 0 else q.val
        split
        · have := q.isLt; omega
        · rfl)
  have hzero : broadcastInDim ⟨2, ![m, n]⟩ ![] h0 (constant (F := Ideal) ⟨0, ![]⟩ .f32 0x00000000#32) (ix2 a q)
      = Ideal.ofBits .f32 0x00000000#32 := by
    unfold broadcastInDim
    rfl
  rw [hbias, hzero, add_right_comm]

/-- Rows of the layer's value are the layer of the same rows: if row a of the blocks gb and xb holds row A of g and of x,
    the layer of the blocks at (a, q) is the layer of g and x at (A, q). -/
theorem sage_rows {M r : Nat} (Gm X : FVec Ideal ⟨2, ![M, k]⟩ .f32) (gb xb : FVec Ideal ⟨2, ![r, k]⟩ .f32)
    (Wl Wr : FVec Ideal ⟨2, ![k, n]⟩ .f32) (β : Fin n → EReal) (a : Fin r) (A : Fin M) (q : Fin n)
    (hg : ∀ c : Fin k, gb (ix2 a c) = Gm (ix2 A c)) (hx : ∀ c : Fin k, xb (ix2 a c) = X (ix2 A c)) :
    sage gb xb Wl Wr β (ix2 a q) = sage Gm X Wl Wr β (ix2 A q) := by
  rw [sage_apply, sage_apply]
  have e1 : (∑ c : Fin k, gb (ix2 a c) * Wl (ix2 c q)) = ∑ c : Fin k, Gm (ix2 A c) * Wl (ix2 c q) :=
    Finset.sum_congr rfl fun c _ => by rw [hg c]
  have e2 : (∑ c : Fin k, xb (ix2 a c) * Wr (ix2 c q)) = ∑ c : Fin k, X (ix2 A c) * Wr (ix2 c q) :=
    Finset.sum_congr rfl fun c _ => by rw [hx c]
  rw [e1, e2]

end Cert.LibSageLayer

end
-- ==== Proof.LibLinearLayer.lean ====
/-
  A linear layer read at an index, at the ideal values.

  For a matrix x (m rows, k columns), a weight matrix W (k rows, n columns) and a bias row β, the layer's value at row a
  and column q is (∑ c, x(a, c) · W(c, q)) + β(q). Two spellings of it are read here and shown to be this one function:
  the product of the two matrices rounded to a narrower format (which, at the ideal values, changes nothing) into a
  zero accumulator, plus the bias row broadcast over the rows; and the host's product of the two matrices plus the bias
  vector broadcast twice, first to one row and then over the rows. A block of consecutive rows of the layer's value is
  the layer applied to the same rows of x.
-/
import Idealize.ShloMosaic.PureOps.Ideal.Laws
import Idealize.ShloMosaic.Lib.ValueIdx
import Idealize.ShloMosaic.Lib.ValueLayout
import Idealize.ShloMosaic.Lib.StackMember
import proofs.«146561_j61065845015011_1_alg».proof.Proof.LibMatmulPlain

noncomputable section

namespace Cert.LibLinearLayer

open Idealize.ShloMosaic Idealize.ShloMosaic.ValueIdx

variable {m k n : Nat}

/-- The linear layer: at row a and column q, the sum over c of x(a, c) · W(c, q), plus the bias at column q. -/
def lin (x : FVec Ideal ⟨2, ![m, k]⟩ .f32) (W : FVec Ideal ⟨2, ![k, n]⟩ .f32) (β : Fin n → EReal) :
    FVec Ideal ⟨2, ![m, n]⟩ .f32 :=
  fun i => (∑ c : Fin k, x (ix2 (show Fin m from i 0) c) * W (ix2 c (show Fin n from i 1))) + β (show Fin n from i 1)

theorem lin_apply (x : FVec Ideal ⟨2, ![m, k]⟩ .f32) (W : FVec Ideal ⟨2, ![k, n]⟩ .f32) (β : Fin n → EReal)
    (a : Fin m) (q : Fin n) :
    lin x W β (ix2 a q) = (∑ c : Fin k, x (ix2 a c) * W (ix2 c q)) + β q := rfl

/-- The kernel's spelling: both operands rounded to bf16 (the identity at the ideal values), multiplied into a zero
    accumulator, and the one bias row broadcast over the rows and added. -/
theorem body_eq_lin (D : DotDims ⟨2, ![m, k]⟩ ⟨2, ![k, n]⟩ ⟨2, ![m, n]⟩) (hD : D = DotDims.plain m k n)
    (hbits : FTy.bits .bf16 < FTy.bits .f32)
    (hb : (⟨2, ![1, n]⟩ : Shape).Broadcasts ⟨2, ![m, n]⟩)
    (A : FVec Ideal ⟨2, ![m, k]⟩ .f32) (B : FVec Ideal ⟨2, ![k, n]⟩ .f32) (bias : FVec Ideal ⟨2, ![1, n]⟩ .f32) :
    addf (matmul D none (truncf .bf16 A hbits) (truncf .bf16 B hbits) (constant (F := Ideal) ⟨2, ![m, n]⟩ .f32 0x00000000#32))
        (broadcastTo ⟨2, ![m, n]⟩ bias hb)
      = lin A B (fun q => bias (ix2 (0 : Fin 1) q)) := by
  subst hD
  funext j
  obtain ⟨a, q, rfl⟩ : ∃ (a : Fin m) (q : Fin n), j = ix2 a q := ⟨j 0, j 1, eq_ix2 j⟩
  rw [lin_apply, addf_apply, Cert.LibMatmulPlain.matmul_plain_zero_apply, broadcastTo_1b_ab_apply]
  rfl

/-- The host's spelling: the product of the two matrices, plus the bias vector made a row and then broadcast over the
    rows. -/
theorem host_eq_lin (D : DotDims ⟨2, ![m, k]⟩ ⟨2, ![k, n]⟩ ⟨2, ![m, n]⟩) (hD : D = DotDims.plain m k n)
    (h1 : (⟨1, ![n]⟩ : Shape).BroadcastsInDim ⟨2, ![1, n]⟩ ![1])
    (h2 : (⟨2, ![1, n]⟩ : Shape).BroadcastsInDim ⟨2, ![m, n]⟩ ![0, 1])
    (x : FVec Ideal ⟨2, ![m, k]⟩ .f32) (W : FVec Ideal ⟨2, ![k, n]⟩ .f32) (b : FVec Ideal ⟨1, ![n]⟩ .f32) :
    addf (Host.dotGeneral D none x W)
        (broadcastInDim ⟨2, ![m, n]⟩ ![0, 1] h2 (broadcastInDim ⟨2, ![1, n]⟩ ![1] h1 b))
      = lin x W (fun q => b (ix1 q)) := by
  subst hD
  funext j
  obtain ⟨a, q, rfl⟩ : ∃ (a : Fin m) (q : Fin n), j = ix2 a q := ⟨j 0, j 1, eq_ix2 j⟩
  rw [lin_apply, addf_apply, StackMember.dotGeneral_plain_apply]
  congr 1
  rw [broadcastInDim_apply ![0, 1] h2 _ (ix2 a q) (ix2 (0 : Fin 1) q) (fun ax => by
    match ax with
    | ⟨0, _⟩ => show (0 : Nat) = if (1 : Nat) = 1 then 0 else a.val; rw [if_pos rfl]
    | ⟨1, _⟩ =>
      show q.val = if n = 1 then 0 else q.val
      split
      · have := q.isLt; omega
      · rfl)]
  exact broadcastInDim_apply ![1] h1 b (ix2 (0 : Fin 1) q) (ix1 q) (fun ax => by
    match ax with
    | ⟨0, _⟩ =>
      show q.val = if n = 1 then 0 else q.val
      split
      · have := q.isLt; omega
      · rfl)

/-- Rows T·r … T·r + r − 1 of the layer's value are the layer applied to the same rows of x: if a block xb of r rows
    holds those rows of x, the layer of the block at (a, q) is the layer of x at (T·r + a, q). -/
theorem lin_rows {M r : Nat} (X : FVec Ideal ⟨2, ![M, k]⟩ .f32) (xb : FVec Ideal ⟨2, ![r, k]⟩ .f32)
    (W : FVec Ideal ⟨2, ![k, n]⟩ .f32) (β : Fin n → EReal) (a : Fin r) (A : Fin M) (q : Fin n)
    (hx : ∀ c : Fin k, xb (ix2 a c) = X (ix2 A c)) :
    lin xb W β (ix2 a q) = lin X W β (ix2 A q) := by
  rw [lin_apply, lin_apply]
  congr 1
  exact Finset.sum_congr rfl fun c _ => by rw [hx c]

end Cert.LibLinearLayer

end
-- ==== Proof.SageModel.lean ====
/-
  The two-layer graph network of this certificate as ONE function of its ten argument arrays, and the host program's
  composed term read as that function.

  The network: from the edge list (two rows of node numbers: the source and the destination of each edge) and the node
  features x, the MEAN AGGREGATE of x — for each node the sum of the features of the sources of its incoming edges,
  divided by the number of those edges or by one if there are none — is formed; the first layer maps the aggregate and x
  to h = max(agg · Wl1ᵀ + x · Wr1ᵀ + bl1, 0); the second layer does the same with the aggregate of h and h itself; and a
  last linear map gives h2 · Wlinᵀ + blin.

  The aggregation (a gather along the sources, a scatter-add along the destinations, a count by a second scatter-add) is
  the same list of host operations wherever it occurs. It is named here once, `segMean`, as a function of the two rows
  of node numbers and of the array it aggregates, and is never opened: everything proved about the network holds for
  whatever function of those three arrays it is.
-/
import proofs.«146561_j61065845015011_1_alg».proof.Proof.Gen.ReferenceIdeal.Run
import proofs.«146561_j61065845015011_1_alg».proof.Proof.LibSageLayer
import proofs.«146561_j61065845015011_1_alg».proof.Proof.LibLinearLayer

set_option maxRecDepth 16384

noncomputable section

namespace Cert.SageModel

open Idealize.ShloMosaic Idealize.ShloMosaic.ValueIdx Idealize.ShloMosaic.TcCoe Idealize.SL.Sem
open Cert.ReferenceIdeal Cert.ReferenceIdeal.Gen
open Cert.LibSageLayer Cert.LibLinearLayer

/-- The sources of the edges: row 0 of the edge list. -/
def srcOf (ei : IVec S2x800000 32) : IVec S800000 32 :=
  shapeCast _ (extractStridedSlice S1x800000 ![0, 0] ei slices_S2x800000_S1x800000_0_0) shapeCasts_S1x800000_S800000

/-- The destinations of the edges: row 1 of the edge list. -/
def dstOf (ei : IVec S2x800000 32) : IVec S800000 32 :=
  shapeCast _ (extractStridedSlice S1x800000 ![1, 0] ei slices_S2x800000_S1x800000_1_0) shapeCasts_S1x800000_S800000

/-- The mean aggregate of X along the edges: rows of X gathered at the sources (a negative number counted from the end),
    summed into the destinations, divided by the number of incoming edges or by one. -/
def segMean (src dst : IVec S800000 32) (X : FVec Ideal S50000x128 .f32) : FVec Ideal S50000x128 .f32 :=
  Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 dst) (Host.gather gather_S50000x128_S800000x1_S800000x128_1_0_n_n_0_1_1128 X (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src)))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 dst) (broadcastInDim S800000 ![] bcast_S_S800000 (constant S_ .f32 0x3F800000#32))) (broadcastInDim S50000 ![] bcast_S_S50000 (constant S_ .f32 0x3F800000#32)))))

/-- One layer over an aggregate: max(agg · Wlᵀ + h · Wrᵀ + b, 0), index by index. -/
def layer (agg h : FVec Ideal S50000x128 .f32) (Wl : FVec Ideal S128x128 .f32) (b : FVec Ideal S128 .f32)
    (Wr : FVec Ideal S128x128 .f32) : FVec Ideal S50000x128 .f32 :=
  sage agg h (transpose S128x128 [1, 0] Wl transposes_S128x128_S128x128_1_0)
    (transpose S128x128 [1, 0] Wr transposes_S128x128_S128x128_1_0) (fun q => b (ix1 q))

/-- The first layer's value: the layer over the aggregate of x. -/
def hidden (ei : IVec S2x800000 32) (x : FVec Ideal S50000x128 .f32) (Wl1 : FVec Ideal S128x128 .f32)
    (bl1 : FVec Ideal S128 .f32) (Wr1 : FVec Ideal S128x128 .f32) : FVec Ideal S50000x128 .f32 :=
  layer (segMean (srcOf ei) (dstOf ei) x) x Wl1 bl1 Wr1

/-- The second layer and the last linear map, over the first layer's value h. -/
def head (ei : IVec S2x800000 32) (h : FVec Ideal S50000x128 .f32) (Wl2 : FVec Ideal S128x128 .f32)
    (bl2 : FVec Ideal S128 .f32) (Wr2 : FVec Ideal S128x128 .f32) (Wlin : FVec Ideal S64x128 .f32)
    (blin : FVec Ideal S64 .f32) : FVec Ideal S50000x64 .f32 :=
  lin (layer (segMean (srcOf ei) (dstOf ei) h) h Wl2 bl2 Wr2)
    (transpose S128x64 [1, 0] Wlin transposes_S64x128_S128x64_1_0) (fun q => blin (ix1 q))

/-- The network. -/
def net (x : FVec Ideal S50000x128 .f32) (ei : IVec S2x800000 32) (Wl1 : FVec Ideal S128x128 .f32)
    (bl1 : FVec Ideal S128 .f32) (Wr1 : FVec Ideal S128x128 .f32) (Wl2 : FVec Ideal S128x128 .f32)
    (bl2 : FVec Ideal S128 .f32) (Wr2 : FVec Ideal S128x128 .f32) (Wlin : FVec Ideal S64x128 .f32)
    (blin : FVec Ideal S64 .f32) : FVec Ideal S50000x64 .f32 :=
  head ei (hidden ei x Wl1 bl1 Wr1) Wl2 bl2 Wr2 Wlin blin

/-- A layer in the host's spelling: the product of the aggregate, plus the bias, plus the product of the features, and
    the maximum with zero. -/
theorem layer_host (agg h : FVec Ideal S50000x128 .f32) (Wl : FVec Ideal S128x128 .f32) (b : FVec Ideal S128 .f32)
    (Wr : FVec Ideal S128x128 .f32) :
    maximumf (addf (addf (Host.dotGeneral dot_S50000x128_S128x128_S50000x128_1_0_0_1_n_n none agg (transpose S128x128 [1, 0] Wl transposes_S128x128_S128x128_1_0)) (broadcastInDim S50000x128 ![0, 1] bcast_S1x128_S50000x128_0_1 (broadcastInDim S1x128 ![1] bcast_S128_S1x128_1 b))) (Host.dotGeneral dot_S50000x128_S128x128_S50000x128_1_0_0_1_n_n none h (transpose S128x128 [1, 0] Wr transposes_S128x128_S128x128_1_0))) (broadcastInDim S50000x128 ![] bcast_S_S50000x128 (constant S_ .f32 0x00000000#32))
      = layer agg h Wl b Wr :=
  host_eq_sage dot_S50000x128_S128x128_S50000x128_1_0_0_1_n_n rfl bcast_S_S50000x128 bcast_S128_S1x128_1
    bcast_S1x128_S50000x128_0_1 agg h _ _ b

/-- The last linear map in the host's spelling. -/
theorem lin_host (h2 : FVec Ideal S50000x128 .f32) (Wlin : FVec Ideal S64x128 .f32) (blin : FVec Ideal S64 .f32) :
    addf (Host.dotGeneral dot_S50000x128_S128x64_S50000x64_1_0_0_1_n_n none h2 (transpose S128x64 [1, 0] Wlin transposes_S64x128_S128x64_1_0)) (broadcastInDim S50000x64 ![0, 1] bcast_S1x64_S50000x64_0_1 (broadcastInDim S1x64 ![1] bcast_S64_S1x64_1 blin))
      = lin h2 (transpose S128x64 [1, 0] Wlin transposes_S64x128_S128x64_1_0) (fun q => blin (ix1 q)) :=
  host_eq_lin dot_S50000x128_S128x64_S50000x64_1_0_0_1_n_n rfl bcast_S64_S1x64_1 bcast_S1x64_S50000x64_0_1 h2 _ blin

/-- The host program's composed term, over any ten arrays, is the network of them: its two layers and its last map are
    the host's spellings above, and its two aggregations are `segMean` by definition. -/
theorem term_eq_net (x : FVec Ideal S50000x128 .f32) (ei : IVec S2x800000 32) (Wl1 : FVec Ideal S128x128 .f32)
    (bl1 : FVec Ideal S128 .f32) (Wr1 : FVec Ideal S128x128 .f32) (Wl2 : FVec Ideal S128x128 .f32)
    (bl2 : FVec Ideal S128 .f32) (Wr2 : FVec Ideal S128x128 .f32) (Wlin : FVec Ideal S64x128 .f32)
    (blin : FVec Ideal S64 .f32) :
    (addf (Host.dotGeneral dot_S50000x128_S128x64_S50000x64_1_0_0_1_n_n none (maximumf (addf (addf (Host.dotGeneral dot_S50000x128_S128x128_S50000x128_1_0_0_1_n_n none (Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] ei slices_S2x800000_S1x800000_1_0) shapeCasts_S1x800000_S800000)) (Host.gather gather_S50000x128_S800000x1_S800000x128_1_0_n_n_0_1_1128 (maximumf (addf (addf (Host.dotGeneral dot_S50000x128_S128x128_S50000x128_1_0_0_1_n_n none (Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] ei slices_S2x800000_S1x800000_1_0) shapeCasts_S1x800000_S800000)) (Host.gather gather_S50000x128_S800000x1_S800000x128_1_0_n_n_0_1_1128 x (broadcastInDim S800000x1 ![0] bcast_S800000_S800000x1_0 (select (cmpi .slt (shapeCast _ (extractStridedSlice S1x800000 ![0, 0] ei slices_S2x800000_S1x800000_0_0) shapeCasts_S1x800000_S800000) (broadcastInDim S800000 ![] bcast_S_S800000 (constantI S_ 32 0#32))) (addi (shapeCast _ (extractStridedSlice S1x800000 ![0, 0] ei slices_S2x800000_S1x800000_0_0) shapeCasts_S1x800000_S800000) (broadcastInDim S800000 ![] bcast_S_S800000 (constantI S_ 32 50000#32))) (shapeCast _ (extractStridedSlice S1x800000 ![0, 0] ei slices_S2x800000_S1x800000_0_0) shapeCasts_S1x800000_S800000))))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 (shapeCast _ (extractStridedSlice S1x800000 ![1, 0] ei slices_S2x800000_S1x800000_1_0) shapeCasts_S1x800000_S800000)) (broadcastInDim S800000 ![] bcast_S_S800000 (constant S_ .f32 0x3F800000#32))) (broadcastInDim S50000 ![] bcast_S_S50000 (constant S_ .f32 0x3F800000#32)))))) (transpose S128x128 [1, 0] Wl1 transposes_S128x128_S128x128_1_0)) (broadcastInDim S50000x128 ![0, 1] bcast_S1x128_S50000x128_0_1 (broadcastInDim S1x128 ![1] bcast_S128_S1x128_1 bl1))) (Host.dotGeneral dot_S50000x128_S128x128_S50000x128_1_0_0_1_n_n none x (transpose S128x128 [1, 0] Wr1 transposes_S128x128_S128x128_1_0))) (broadcastInDim S50000x128 ![] bcast_S_S50000x128 (constant S_ .f32 0x00000000#32))) (broadcastInDim S800000x1 ![0] bcast_S800000_S800000x1_0 (select (cmpi .slt (shapeCast _ (extractStridedSlice S1x800000 ![0, 0] ei slices_S2x800000_S1x800000_0_0) shapeCasts_S1x800000_S800000) (broadcastInDim S800000 ![] bcast_S_S800000 (constantI S_ 32 0#32))) (addi (shapeCast _ (extractStridedSlice S1x800000 ![0, 0] ei slices_S2x800000_S1x800000_0_0) shapeCasts_S1x800000_S800000) (broadcastInDim S800000 ![] bcast_S_S800000 (constantI S_ 32 50000#32))) (shapeCast _ (extractStridedSlice S1x800000 ![0, 0] ei slices_S2x800000_S1x800000_0_0) shapeCasts_S1x800000_S800000))))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 (shapeCast _ (extractStridedSlice S1x800000 ![1, 0] ei slices_S2x800000_S1x800000_1_0) shapeCasts_S1x800000_S800000)) (broadcastInDim S800000 ![] bcast_S_S800000 (constant S_ .f32 0x3F800000#32))) (broadcastInDim S50000 ![] bcast_S_S50000 (constant S_ .f32 0x3F800000#32)))))) (transpose S128x128 [1, 0] Wl2 transposes_S128x128_S128x128_1_0)) (broadcastInDim S50000x128 ![0, 1] bcast_S1x128_S50000x128_0_1 (broadcastInDim S1x128 ![1] bcast_S128_S1x128_1 bl2))) (Host.dotGeneral dot_S50000x128_S128x128_S50000x128_1_0_0_1_n_n none (maximumf (addf (addf (Host.dotGeneral dot_S50000x128_S128x128_S50000x128_1_0_0_1_n_n none (Host.divf (Host.scatterAdd scatter_S50000x128_S800000x1_S800000x128_1_0_0_1 (broadcastInDim S50000x128 ![] bcast_S_S50000x128 (constant S_ .f32 0x00000000#32)) (broadcastInDim S800000x1 ![0] bcast_S800000_S800000x1_0 (shapeCast _ (extractStridedSlice S1x800000 ![1, 0] ei slices_S2x800000_S1x800000_1_0) shapeCasts_S1x800000_S800000)) (Host.gather gather_S50000x128_S800000x1_S800000x128_1_0_n_n_0_1_1128 x (broadcastInDim S800000x1 ![0] bcast_S800000_S800000x1_0 (select (cmpi .slt (shapeCast _ (extractStridedSlice S1x800000 ![0, 0] ei slices_S2x800000_S1x800000_0_0) shapeCasts_S1x800000_S800000) (broadcastInDim S800000 ![] bcast_S_S800000 (constantI S_ 32 0#32))) (addi (shapeCast _ (extractStridedSlice S1x800000 ![0, 0] ei slices_S2x800000_S1x800000_0_0) shapeCasts_S1x800000_S800000) (broadcastInDim S800000 ![] bcast_S_S800000 (constantI S_ 32 50000#32))) (shapeCast _ (extractStridedSlice S1x800000 ![0, 0] ei slices_S2x800000_S1x800000_0_0) shapeCasts_S1x800000_S800000))))) (broadcastInDim S50000x128 ![0, 1] bcast_S50000x1_S50000x128_0_1 (broadcastInDim S50000x1 ![0] bcast_S50000_S50000x1_0 (maximumf (Host.scatterAdd scatter_S50000_S800000x1_S800000_n_0_0_1 (broadcastInDim S50000 ![] bcast_S_S50000 (constant S_ .f32 0x00000000#32)) (broadcastInDim S800000x1 ![0] bcast_S800000_S800000x1_0 (shapeCast _ (extractStridedSlice S1x800000 ![1, 0] ei slices_S2x800000_S1x800000_1_0) shapeCasts_S1x800000_S800000)) (broadcastInDim S800000 ![] bcast_S_S800000 (constant S_ .f32 0x3F800000#32))) (broadcastInDim S50000 ![] bcast_S_S50000 (constant S_ .f32 0x3F800000#32)))))) (transpose S128x128 [1, 0] Wl1 transposes_S128x128_S128x128_1_0)) (broadcastInDim S50000x128 ![0, 1] bcast_S1x128_S50000x128_0_1 (broadcastInDim S1x128 ![1] bcast_S128_S1x128_1 bl1))) (Host.dotGeneral dot_S50000x128_S128x128_S50000x128_1_0_0_1_n_n none x (transpose S128x128 [1, 0] Wr1 transposes_S128x128_S128x128_1_0))) (broadcastInDim S50000x128 ![] bcast_S_S50000x128 (constant S_ .f32 0x00000000#32))) (transpose S128x128 [1, 0] Wr2 transposes_S128x128_S128x128_1_0))) (broadcastInDim S50000x128 ![] bcast_S_S50000x128 (constant S_ .f32 0x00000000#32))) (transpose S128x64 [1, 0] Wlin transposes_S64x128_S128x64_1_0)) (broadcastInDim S50000x64 ![0, 1] bcast_S1x64_S50000x64_0_1 (broadcastInDim S1x64 ![1] bcast_S64_S1x64_1 blin)) : FVec Ideal S50000x64 .f32)
      = net x ei Wl1 bl1 Wr1 Wl2 bl2 Wr2 Wlin blin := by
  unfold net head hidden
  rw [← lin_host, ← layer_host, ← layer_host]
  rfl

/-- The host program's result, at the ideal values, is the network of its arguments as launched. -/
theorem res_eq_net (m : (ℓ : Loc nD τ sig) → Buf (Elt Ideal) ℓ) (c : Dev nD) :
    Cert.ReferenceIdeal.Value.res_main_v64 (F := Ideal) m c
      = net (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) (m ((c.tc : Thread nD τ).loc main_arg9)) := by
  unfold Cert.ReferenceIdeal.Value.res_main_v64
  exact term_eq_net _ _ _ _ _ _ _ _ _ _

end Cert.SageModel

end
-- ==== Proof.SageRunNamed.lean ====
/-
  The kernel program's run with its result array named.

  The program is two kernel regions among stretches of host operations. Its run is followed boundary by boundary: the
  buffers' contents after the first stretch, after the first region, after the second stretch, after the second region.
  The statement here is the frame statement with one more fact about every final state: the result buffer holds what the
  last boundary's contents give it. What that is, as a function of the arguments, is read in the value module.
-/
import proofs.«146561_j61065845015011_1_alg».proof.Proof.PatchedKernelIdealFrame

set_option maxRecDepth 16384

noncomputable section

namespace Cert.SageRunNamed

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.GenP

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates, nothing faulting; in every
    final state the result buffer holds the last boundary's contents of it, and the argument arrays are as launched. -/
theorem run_named : θ_run defs (onTc (τ := τ) (main (F := F))) ⟨m, fun _ => 0, ρ⟩ (fun r => ∀ c : Dev nD,
      r.2.mem ((c.tc : Thread nD τ).loc main_v51) = W4 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v51 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.SageRunNamed

end
-- ==== Proof.SageBody.lean ====
/-
  What the two kernel bodies compute from the blocks they load, at the ideal values.

  The first body stores, from a block of rows of the aggregate and of the node features, the two whole weight matrices
  and the bias row, the graph layer of those blocks: max(g · Wl + x · Wr + b, 0). The second body stores that same layer
  followed by the last linear map with its own weight matrix and bias row. The shape casts in the bodies do not change
  the shape and are the identity; the roundings to bf16 are the identity at the ideal values.
-/
import proofs.«146561_j61065845015011_1_alg».proof.Proof.Gen.KernelIdeal.Skeleton
import proofs.«146561_j61065845015011_1_alg».proof.Proof.LibSageLayer
import proofs.«146561_j61065845015011_1_alg».proof.Proof.LibLinearLayer
import Idealize.ShloMosaic.Lib.Pipeline.Value

set_option maxRecDepth 16384

noncomputable section

namespace Cert.SageBody

open Idealize.ShloMosaic Idealize.ShloMosaic.ValueIdx
open Cert.KernelIdeal Cert.KernelIdeal.Gen
open Cert.LibSageLayer Cert.LibLinearLayer

/-- The first body's stored value is the layer of its blocks. -/
theorem pay0_eq (g x : Vec Ideal S2000x128 .f32) (Wl Wr : Vec Ideal S128x128 .f32) (b : Vec Ideal S1x128 .f32) :
    k0_pay1 (F := Ideal) g x Wl Wr b = sage g x Wl Wr (fun q => b (ix2 (0 : Fin 1) q)) := by
  unfold k0_pay1
  simp only [shapeCast_self]
  exact body_eq_sage dot_S2000x128_S128x128_S2000x128_1_0_0_1_n_n rfl bitsLt_bf16_f32 broadcasts_S1x128_S2000x128
    g x Wl Wr b

/-- The second body's stored value is the last linear map of the layer of its blocks. -/
theorem pay1_eq (g x : Vec Ideal S2000x128 .f32) (Wl Wr : Vec Ideal S128x128 .f32) (b : Vec Ideal S1x128 .f32)
    (Wlin : Vec Ideal S128x64 .f32) (blin : Vec Ideal S1x64 .f32) :
    k1_pay1 (F := Ideal) g x Wl Wr b Wlin blin
      = lin (sage g x Wl Wr (fun q => b (ix2 (0 : Fin 1) q))) Wlin (fun q => blin (ix2 (0 : Fin 1) q)) := by
  unfold k1_pay1
  simp only [shapeCast_self]
  rw [body_eq_sage dot_S2000x128_S128x128_S2000x128_1_0_0_1_n_n rfl bitsLt_bf16_f32 broadcasts_S1x128_S2000x128
    g x Wl Wr b]
  exact body_eq_lin dot_S2000x128_S128x64_S2000x64_1_0_0_1_n_n rfl bitsLt_bf16_f32 broadcasts_S1x64_S2000x64 _ Wlin blin

end Cert.SageBody

end
-- ==== Proof.SageRegion0.lean ====
/-
  The first kernel region: whatever the buffers hold when the region is entered, the array it writes ends as the graph
  layer of the arrays it reads.

  The grid has 25 points; point t reads rows 2000·t … 2000·t + 1999 of the aggregate and of the node features, the two
  weight matrices and the bias row whole, and writes rows 2000·t … 2000·t + 1999 of the result. A row of the layer
  depends only on the same row of the aggregate and of the features, so what point t writes is rows 2000·t … of the
  layer of the whole arrays; the 25 blocks of rows cover all 50000 rows, so the whole result array is that layer.
-/
import proofs.«146561_j61065845015011_1_alg».proof.Proof.PatchedKernelIdealFrame
import proofs.«146561_j61065845015011_1_alg».proof.Proof.SageBody
import Idealize.ShloMosaic.Lib.Pipeline.Value

set_option maxRecDepth 16384

noncomputable section

namespace Cert.SageRegion0

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.KernelIdeal.GenP
open Cert.LibSageLayer Cert.LibLinearLayer Cert.SageBody

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region reads, as it finds them. -/
def G (c : Dev nD) : FVec Ideal S50000x128 .f32 :=
  sage (m := 50000) (k := 128) (n := 128) (V c main_v22) (V c main_arg0) (V c main_v23) (V c main_v24)
    (fun q => V c main_v25 (ix2 (0 : Fin 1) q))

/-- The index maps over the grid: the row windows and the output sit at block t, the resident windows at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 25 := by
  have h := t.isLt
  have hN : cfg0.N = 25 := N_0
  omega

/-- Row a of the aggregate's block at point t is row 2000·t + a of the aggregate. -/
theorem rows_agg (c : Dev nD) (t : Fin cfg0.N) (a : Fin 2000) (A : Fin 50000) (hA : A.val = t.val * 2000 + a.val)
    (k : Fin 128) : iblk0 V c 0 t (ix2 a k) = V c main_v22 (ix2 A k) := by
  obtain ⟨e0, e1, -⟩ := idx_facts t
  show V c main_v22 (((cfg0.win 0).blk t).view.emb (ix2 a k)) = V c main_v22 (ix2 A k)
  refine congrArg _ (funext fun ax => Fin.ext ?_)
  match ax with
  | ⟨0, _⟩ => show win0_0.index t (0 : Fin 2) * 2000 + 1 * a.val = A.val; omega
  | ⟨1, _⟩ => show win0_0.index t (1 : Fin 2) * 128 + 1 * k.val = k.val; omega

/-- Row a of the features' block at point t is row 2000·t + a of the features. -/
theorem rows_feat (c : Dev nD) (t : Fin cfg0.N) (a : Fin 2000) (A : Fin 50000) (hA : A.val = t.val * 2000 + a.val)
    (k : Fin 128) : iblk0 V c 1 t (ix2 a k) = V c main_arg0 (ix2 A k) := by
  obtain ⟨-, -, e0, e1, -⟩ := idx_facts t
  show V c main_arg0 (((cfg0.win 1).blk t).view.emb (ix2 a k)) = V c main_arg0 (ix2 A k)
  refine congrArg _ (funext fun ax => Fin.ext ?_)
  match ax with
  | ⟨0, _⟩ => show win0_1.index t (0 : Fin 2) * 2000 + 1 * a.val = A.val; omega
  | ⟨1, _⟩ => show win0_1.index t (1 : Fin 2) * 128 + 1 * k.val = k.val; omega

/-- The resident windows' blocks are their whole arrays, at every point. -/
theorem whole_wl (c : Dev nD) (t : Fin cfg0.N) (y : S128x128.Idx) : iblk0 V c 2 t y = V c main_v23 y := by
  obtain ⟨-, -, -, -, e0, e1, -⟩ := idx_facts t
  show V c main_v23 (((cfg0.win 2).blk t).view.emb y) = V c main_v23 y
  refine congrArg _ (funext fun ax => Fin.ext ?_)
  match ax with
  | ⟨0, _⟩ => show win0_2.index t (0 : Fin 2) * 128 + 1 * (y 0).val = (y 0).val; omega
  | ⟨1, _⟩ => show win0_2.index t (1 : Fin 2) * 128 + 1 * (y 1).val = (y 1).val; omega

theorem whole_b (c : Dev nD) (t : Fin cfg0.N) (y : S1x128.Idx) : iblk0 V c 3 t y = V c main_v25 y := by
  obtain ⟨-, -, -, -, -, -, e0, e1, -⟩ := idx_facts t
  show V c main_v25 (((cfg0.win 3).blk t).view.emb y) = V c main_v25 y
  refine congrArg _ (funext fun ax => Fin.ext ?_)
  match ax with
  | ⟨0, _⟩ => show win0_3.index t (0 : Fin 2) * 1 + 1 * (y 0).val = (y 0).val; omega
  | ⟨1, _⟩ => show win0_3.index t (1 : Fin 2) * 128 + 1 * (y 1).val = (y 1).val; omega

theorem whole_wr (c : Dev nD) (t : Fin cfg0.N) (y : S128x128.Idx) : iblk0 V c 4 t y = V c main_v24 y := by
  obtain ⟨-, -, -, -, -, -, -, -, e0, e1, -⟩ := idx_facts t
  show V c main_v24 (((cfg0.win 4).blk t).view.emb y) = V c main_v24 y
  refine congrArg _ (funext fun ax => Fin.ext ?_)
  match ax with
  | ⟨0, _⟩ => show win0_4.index t (0 : Fin 2) * 128 + 1 * (y 0).val = (y 0).val; omega
  | ⟨1, _⟩ => show win0_4.index t (1 : Fin 2) * 128 + 1 * (y 1).val = (y 1).val; omega

/-- What point t writes back is rows 2000·t … of the layer of the whole arrays. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz,
    View.ld_unit_zero (S := S1x128) hz]
  rw [pay0_eq]
  have hwl : iblk0 V c 2 t = V c main_v23 := funext (whole_wl V c t)
  have hwr : iblk0 V c 4 t = V c main_v24 := funext (whole_wr V c t)
  have hb : (fun q : Fin 128 => iblk0 V c 3 t (ix2 (0 : Fin 1) q)) = fun q => V c main_v25 (ix2 (0 : Fin 1) q) :=
    funext fun q => whole_b V c t _
  rw [hwl, hwr, hb]
  funext j
  obtain ⟨a, q, rfl⟩ : ∃ (a : Fin 2000) (q : Fin 128), j = ix2 a q := ⟨j 0, j 1, eq_ix2 j⟩
  have ht := t_lt t
  have hA : t.val * 2000 + a.val < 50000 := by have := a.isLt; omega
  obtain ⟨-, -, -, -, -, -, -, -, -, -, e0, e1⟩ := idx_facts t
  have he : ((cfg0.win 5).blk t).view.emb (ix2 a q) = ix2 (⟨t.val * 2000 + a.val, hA⟩ : Fin 50000) q := by
    funext ax; apply Fin.ext
    match ax with
    | ⟨0, _⟩ => show win0_5.index t (0 : Fin 2) * 2000 + 1 * a.val = t.val * 2000 + a.val; omega
    | ⟨1, _⟩ => show win0_5.index t (1 : Fin 2) * 128 + 1 * q.val = q.val; omega
  show sage (m := 2000) (k := 128) (n := 128) (iblk0 V c 0 t) (iblk0 V c 1 t) (V c main_v23) (V c main_v24)
      (fun q => V c main_v25 (ix2 (0 : Fin 1) q)) (ix2 a q) = G V c (((cfg0.win 5).blk t).view.emb (ix2 a q))
  rw [he]
  exact sage_rows (M := 50000) (r := 2000) (k := 128) (n := 128) (V c main_v22) (V c main_arg0) (iblk0 V c 0 t)
    (iblk0 V c 1 t) (V c main_v23) (V c main_v24) _ a ⟨t.val * 2000 + a.val, hA⟩ q
    (fun k => rows_agg V c t a _ rfl k) (fun k => rows_feat V c t a _ rfl k)

/-- An index of the result array is in point t's block iff its row is among rows 2000·t … 2000·t + 1999. -/
theorem mem_blk (t : Fin cfg0.N) (i : S50000x128.Idx) :
    i ∈ ((cfg0.win 5).blk t).view.set ↔ ∀ a : Fin 2, win0_5.index t a * S2000x128.size a ≤ (i a).val
      ∧ (i a).val < win0_5.index t a * S2000x128.size a + S2000x128.size a := by
  show i ∈ ((View.whole main_v26).slice (win0_5.rect t)).set ↔ _
  rw [View.set_slice_whole, Rect.mem_set_unit]
  exact Iff.rfl

/-- Every index of the result array is in some point's block: the point is the row divided by 2000. -/
theorem cover (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : cfg0.N = 25 := N_0
  let t : Fin cfg0.N := ⟨(i 0).val / 2000, by omega⟩
  have htv : t.val = (i 0).val / 2000 := rfl
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 2000 ≤ (i 0).val ∧ (i 0).val < win0_5.index t (0 : Fin 2) * 2000 + 2000
    omega
  | ⟨1, _⟩ =>
    show win0_5.index t (1 : Fin 2) * 128 ≤ (i 1).val ∧ (i 1).val < win0_5.index t (1 : Fin 2) * 128 + 128
    omega

/-- The result array after the region is the layer of the arrays the region read. -/
theorem final (c : Dev nD) : (dat0 V c).arrAt 5 cfg0.N = G V c :=
  (dat0 V c).arrAt_eq_of_cover 5 (G V c) (fun t _ => flushed_eq V c t) cover

end Cert.SageRegion0

end
-- ==== Proof.SageRegion1.lean ====
/-
  The second kernel region: whatever the buffers hold when the region is entered, the array it writes ends as the last
  linear map of the graph layer of the arrays it reads.

  The grid has 25 points; point t reads rows 2000·t … 2000·t + 1999 of the aggregate and of the first layer's value, the
  layer's two weight matrices and bias row and the last map's weight matrix and bias row whole, and writes rows 2000·t …
  of the result. A row of the result depends only on the same row of the aggregate and of the first layer's value, so what
  point t writes is rows 2000·t … of the map of the layer of the whole arrays; the 25 blocks cover all 50000 rows.
-/
import proofs.«146561_j61065845015011_1_alg».proof.Proof.PatchedKernelIdealFrame
import proofs.«146561_j61065845015011_1_alg».proof.Proof.SageBody
import Idealize.ShloMosaic.Lib.Pipeline.Value

set_option maxRecDepth 16384

noncomputable section

namespace Cert.SageRegion1

open Idealize.ShloMosaic Idealize.ShloMosaic.ValueIdx Idealize.ShloMosaic.TcCoe Idealize.SL.Sem
open Idealize.ShloMosaic.Pipeline (Dat Cfg Window)
open Cert.KernelIdeal Cert.KernelIdeal.Gen Cert.KernelIdeal.GenP
open Cert.LibSageLayer Cert.LibLinearLayer Cert.SageBody

variable (V : (c : Dev nD) → (b : Ref sig .tc) → Buf (Elt Ideal) ((c : Thread nD τ).loc b))

theorem hz : (![0, 0] : Fin 2 → Nat) = fun _ => 0 := funext fun a => by fin_cases a <;> rfl

/-- The layer of the arrays the region reads, as it finds them. -/
def H (c : Dev nD) : FVec Ideal S50000x128 .f32 :=
  sage (m := 50000) (k := 128) (n := 128) (V c main_v45) (V c main_v26) (V c main_v46) (V c main_v47)
    (fun q => V c main_v48 (ix2 (0 : Fin 1) q))

/-- The last linear map of that layer. -/
def G (c : Dev nD) : FVec Ideal S50000x64 .f32 :=
  lin (m := 50000) (k := 128) (n := 64) (H V c) (V c main_v49) (fun q => V c main_v50 (ix2 (0 : Fin 1) q))

/-- The index maps over the grid: the row windows and the output sit at block t, the resident windows at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

theorem t_lt (t : Fin cfg1.N) : t.val < 25 := by
  have h := t.isLt
  have hN : cfg1.N = 25 := N_1
  omega

theorem rows_agg (c : Dev nD) (t : Fin cfg1.N) (a : Fin 2000) (A : Fin 50000) (hA : A.val = t.val * 2000 + a.val)
    (k : Fin 128) : iblk1 V c 0 t (ix2 a k) = V c main_v45 (ix2 A k) := by
  obtain ⟨e0, e1, -⟩ := idx_facts t
  show V c main_v45 (((cfg1.win 0).blk t).view.emb (ix2 a k)) = V c main_v45 (ix2 A k)
  refine congrArg _ (funext fun ax => Fin.ext ?_)
  match ax with
  | ⟨0, _⟩ => show win1_0.index t (0 : Fin 2) * 2000 + 1 * a.val = A.val; omega
  | ⟨1, _⟩ => show win1_0.index t (1 : Fin 2) * 128 + 1 * k.val = k.val; omega

theorem rows_feat (c : Dev nD) (t : Fin cfg1.N) (a : Fin 2000) (A : Fin 50000) (hA : A.val = t.val * 2000 + a.val)
    (k : Fin 128) : iblk1 V c 1 t (ix2 a k) = V c main_v26 (ix2 A k) := by
  obtain ⟨-, -, e0, e1, -⟩ := idx_facts t
  show V c main_v26 (((cfg1.win 1).blk t).view.emb (ix2 a k)) = V c main_v26 (ix2 A k)
  refine congrArg _ (funext fun ax => Fin.ext ?_)
  match ax with
  | ⟨0, _⟩ => show win1_1.index t (0 : Fin 2) * 2000 + 1 * a.val = A.val; omega
  | ⟨1, _⟩ => show win1_1.index t (1 : Fin 2) * 128 + 1 * k.val = k.val; omega

theorem whole_wl (c : Dev nD) (t : Fin cfg1.N) (y : S128x128.Idx) : iblk1 V c 2 t y = V c main_v46 y := by
  obtain ⟨-, -, -, -, e0, e1, -⟩ := idx_facts t
  show V c main_v46 (((cfg1.win 2).blk t).view.emb y) = V c main_v46 y
  refine congrArg _ (funext fun ax => Fin.ext ?_)
  match ax with
  | ⟨0, _⟩ => show win1_2.index t (0 : Fin 2) * 128 + 1 * (y 0).val = (y 0).val; omega
  | ⟨1, _⟩ => show win1_2.index t (1 : Fin 2) * 128 + 1 * (y 1).val = (y 1).val; omega

theorem whole_b (c : Dev nD) (t : Fin cfg1.N) (y : S1x128.Idx) : iblk1 V c 3 t y = V c main_v48 y := by
  obtain ⟨-, -, -, -, -, -, e0, e1, -⟩ := idx_facts t
  show V c main_v48 (((cfg1.win 3).blk t).view.emb y) = V c main_v48 y
  refine congrArg _ (funext fun ax => Fin.ext ?_)
  match ax with
  | ⟨0, _⟩ => show win1_3.index t (0 : Fin 2) * 1 + 1 * (y 0).val = (y 0).val; omega
  | ⟨1, _⟩ => show win1_3.index t (1 : Fin 2) * 128 + 1 * (y 1).val = (y 1).val; omega

theorem whole_wr (c : Dev nD) (t : Fin cfg1.N) (y : S128x128.Idx) : iblk1 V c 4 t y = V c main_v47 y := by
  obtain ⟨-, -, -, -, -, -, -, -, e0, e1, -⟩ := idx_facts t
  show V c main_v47 (((cfg1.win 4).blk t).view.emb y) = V c main_v47 y
  refine congrArg _ (funext fun ax => Fin.ext ?_)
  match ax with
  | ⟨0, _⟩ => show win1_4.index t (0 : Fin 2) * 128 + 1 * (y 0).val = (y 0).val; omega
  | ⟨1, _⟩ => show win1_4.index t (1 : Fin 2) * 128 + 1 * (y 1).val = (y 1).val; omega

theorem whole_wlin (c : Dev nD) (t : Fin cfg1.N) (y : S128x64.Idx) : iblk1 V c 5 t y = V c main_v49 y := by
  obtain ⟨-, -, -, -, -, -, -, -, -, -, e0, e1, -⟩ := idx_facts t
  show V c main_v49 (((cfg1.win 5).blk t).view.emb y) = V c main_v49 y
  refine congrArg _ (funext fun ax => Fin.ext ?_)
  match ax with
  | ⟨0, _⟩ => show win1_5.index t (0 : Fin 2) * 128 + 1 * (y 0).val = (y 0).val; omega
  | ⟨1, _⟩ => show win1_5.index t (1 : Fin 2) * 64 + 1 * (y 1).val = (y 1).val; omega

theorem whole_blin (c : Dev nD) (t : Fin cfg1.N) (y : S1x64.Idx) : iblk1 V c 6 t y = V c main_v50 y := by
  obtain ⟨-, -, -, -, -, -, -, -, -, -, -, -, e0, e1, -⟩ := idx_facts t
  show V c main_v50 (((cfg1.win 6).blk t).view.emb y) = V c main_v50 y
  refine congrArg _ (funext fun ax => Fin.ext ?_)
  match ax with
  | ⟨0, _⟩ => show win1_6.index t (0 : Fin 2) * 1 + 1 * (y 0).val = (y 0).val; omega
  | ⟨1, _⟩ => show win1_6.index t (1 : Fin 2) * 64 + 1 * (y 1).val = (y 1).val; omega

/-- What point t writes back is rows 2000·t … of the map of the layer of the whole arrays. -/
theorem flushed_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S2000x128) hz, View.ld_unit_zero (S := S128x128) hz,
    View.ld_unit_zero (S := S1x128) hz, View.ld_unit_zero (S := S128x64) hz, View.ld_unit_zero (S := S1x64) hz]
  rw [pay1_eq]
  have hwl : iblk1 V c 2 t = V c main_v46 := funext (whole_wl V c t)
  have hwr : iblk1 V c 4 t = V c main_v47 := funext (whole_wr V c t)
  have hb : (fun q : Fin 128 => iblk1 V c 3 t (ix2 (0 : Fin 1) q)) = fun q => V c main_v48 (ix2 (0 : Fin 1) q) :=
    funext fun q => whole_b V c t _
  have hwlin : iblk1 V c 5 t = V c main_v49 := funext (whole_wlin V c t)
  have hblin : (fun q : Fin 64 => iblk1 V c 6 t (ix2 (0 : Fin 1) q)) = fun q => V c main_v50 (ix2 (0 : Fin 1) q) :=
    funext fun q => whole_blin V c t _
  rw [hwl, hwr, hb, hwlin, hblin]
  funext j
  obtain ⟨a, q, rfl⟩ : ∃ (a : Fin 2000) (q : Fin 64), j = ix2 a q := ⟨j 0, j 1, eq_ix2 j⟩
  have ht := t_lt t
  have hA : t.val * 2000 + a.val < 50000 := by have := a.isLt; omega
  obtain ⟨-, -, -, -, -, -, -, -, -, -, -, -, -, -, e0, e1⟩ := idx_facts t
  have he : ((cfg1.win 7).blk t).view.emb (ix2 a q) = ix2 (⟨t.val * 2000 + a.val, hA⟩ : Fin 50000) q := by
    funext ax; apply Fin.ext
    match ax with
    | ⟨0, _⟩ => show win1_7.index t (0 : Fin 2) * 2000 + 1 * a.val = t.val * 2000 + a.val; omega
    | ⟨1, _⟩ => show win1_7.index t (1 : Fin 2) * 64 + 1 * q.val = q.val; omega
  show lin (m := 2000) (k := 128) (n := 64)
      (sage (m := 2000) (k := 128) (n := 128) (iblk1 V c 0 t) (iblk1 V c 1 t) (V c main_v46) (V c main_v47)
        (fun q => V c main_v48 (ix2 (0 : Fin 1) q)))
      (V c main_v49) (fun q => V c main_v50 (ix2 (0 : Fin 1) q)) (ix2 a q)
    = G V c (((cfg1.win 7).blk t).view.emb (ix2 a q))
  rw [he]
  exact lin_rows (M := 50000) (r := 2000) (k := 128) (n := 64) (H V c) _ (V c main_v49) _ a
    ⟨t.val * 2000 + a.val, hA⟩ q
    (fun k' => sage_rows (M := 50000) (r := 2000) (k := 128) (n := 128) (V c main_v45) (V c main_v26) (iblk1 V c 0 t)
      (iblk1 V c 1 t) (V c main_v46) (V c main_v47) _ a ⟨t.val * 2000 + a.val, hA⟩ k'
      (fun k => rows_agg V c t a _ rfl k) (fun k => rows_feat V c t a _ rfl k))

theorem mem_blk (t : Fin cfg1.N) (i : S50000x64.Idx) :
    i ∈ ((cfg1.win 7).blk t).view.set ↔ ∀ a : Fin 2, win1_7.index t a * S2000x64.size a ≤ (i a).val
      ∧ (i a).val < win1_7.index t a * S2000x64.size a + S2000x64.size a := by
  show i ∈ ((View.whole main_v51).slice (win1_7.rect t)).set ↔ _
  rw [View.set_slice_whole, Rect.mem_set_unit]
  exact Iff.rfl

/-- Every index of the result array is in some point's block: the point is the row divided by 2000. -/
theorem cover (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  have hN : cfg1.N = 25 := N_1
  let t : Fin cfg1.N := ⟨(i 0).val / 2000, by omega⟩
  have htv : t.val = (i 0).val / 2000 := rfl
  obtain ⟨-, -, -, -, -, -, -, -, -, -, -, -, -, -, e0, e1⟩ := idx_facts t
  refine ⟨t, flush1_7 t, ?_⟩
  rw [mem_blk]
  intro a
  match a with
  | ⟨0, _⟩ =>
    show win1_7.index t (0 : Fin 2) * 2000 ≤ (i 0).val ∧ (i 0).val < win1_7.index t (0 : Fin 2) * 2000 + 2000
    omega
  | ⟨1, _⟩ =>
    show win1_7.index t (1 : Fin 2) * 64 ≤ (i 1).val ∧ (i 1).val < win1_7.index t (1 : Fin 2) * 64 + 64
    omega

/-- The result array after the region is the map of the layer of the arrays the region read. -/
theorem final (c : Dev nD) : (dat1 V c).arrAt 7 cfg1.N = G V c :=
  (dat1 V c).arrAt_eq_of_cover 7 (G V c) (fun t _ => flushed_eq V c t) cover

end Cert.SageRegion1

end
-- ==== Proof.SageValue.lean ====
/-
  The kernel program's result array as a function of its arguments, at the ideal values: the network.

  The buffers are followed through the program's four stretches. The first stretch of host operations leaves the mean
  aggregate of the node features, the transposed weight matrices and the bias made a row; the first region turns them
  into the first layer's value (the region module); the second stretch aggregates that value along the same edges and
  prepares the second layer's and the last map's weights; the second region gives the result. Each stretch's results are
  its operations' composed terms; the aggregation's term is `segMean` by definition, so it is met without being opened.
  A bias made a row by a reshape and read at (0, q) is the bias at q.
-/
import proofs.«146561_j61065845015011_1_alg».proof.Proof.PatchedKernelIdealFrame
import proofs.«146561_j61065845015011_1_alg».proof.Proof.SageRegion0
import proofs.«146561_j61065845015011_1_alg».proof.Proof.SageRegion1
import proofs.«146561_j61065845015011_1_alg».proof.Proof.SageModel
import Idealize.ShloMosaic.Lib.StableHlo.Run
import Idealize.ShloMosaic.Lib.ValueLayout

set_option maxRecDepth 16384

noncomputable section

namespace Cert.SageValue

open Idealize.ShloMosaic Idealize.ShloMosaic.ValueIdx Idealize.ShloMosaic.TcCoe Idealize.SL.Sem
open Idealize.ShloMosaic.StableHlo
open Cert.KernelIdeal Cert.KernelIdeal.Gen Cert.KernelIdeal.GenP
open Cert.SageModel Cert.LibSageLayer Cert.LibLinearLayer

variable (m : (ℓ : Loc nD τ sig) → Buf (Elt Ideal) ℓ) (ρ : Dev nD → PrngReg)

/-! ## The first stretch: what the first region finds -/

set_option maxHeartbeats 4000000 in
theorem V1_agg (c : Dev nD) :
    V1 m ρ c main_v22 = segMean (srcOf (m ((c.tc : Thread nD τ).loc main_arg1))) (dstOf (m ((c.tc : Thread nD τ).loc main_arg1))) (m ((c.tc : Thread nD τ).loc main_arg0)) := by
  show StableHlo.after hostOps0 (W0 m ρ c) (Proc.devRef .tc main_v22) = _
  after_results_simp
  rfl

theorem V1_x (c : Dev nD) : V1 m ρ c main_arg0 = (m ((c.tc : Thread nD τ).loc main_arg0)) := by
  show StableHlo.after hostOps0 (W0 m ρ c) (Proc.devRef .tc main_arg0) = _
  after_results

theorem V1_wl (c : Dev nD) :
    V1 m ρ c main_v23 = transpose S128x128 [1, 0] (m ((c.tc : Thread nD τ).loc main_arg2)) transposes_S128x128_S128x128_1_0 := by
  show StableHlo.after hostOps0 (W0 m ρ c) (Proc.devRef .tc main_v23) = _
  after_results

theorem V1_wr (c : Dev nD) :
    V1 m ρ c main_v24 = transpose S128x128 [1, 0] (m ((c.tc : Thread nD τ).loc main_arg4)) transposes_S128x128_S128x128_1_0 := by
  show StableHlo.after hostOps0 (W0 m ρ c) (Proc.devRef .tc main_v24) = _
  after_results

theorem V1_b (c : Dev nD) : V1 m ρ c main_v25 = shapeCast S1x128 (m ((c.tc : Thread nD τ).loc main_arg3)) shapeCasts_S128_S1x128 := by
  show StableHlo.after hostOps0 (W0 m ρ c) (Proc.devRef .tc main_v25) = _
  after_results
  rfl

/-! ## After the first region -/

/-- The first region's result array is the first layer's value. -/
theorem hidden_eq (c : Dev nD) :
    W2 m ρ c (Proc.devRef .tc main_v26) = Cert.SageModel.hidden (m ((c.tc : Thread nD τ).loc main_arg1)) (m ((c.tc : Thread nD τ).loc main_arg0)) (m ((c.tc : Thread nD τ).loc main_arg2)) (m ((c.tc : Thread nD τ).loc main_arg3)) (m ((c.tc : Thread nD τ).loc main_arg4)) := by
  refine (W2_arr m ρ c 5).trans ((Cert.SageRegion0.final (V1 m ρ) c).trans ?_)
  unfold Cert.SageRegion0.G Cert.SageModel.hidden layer
  rw [V1_agg, V1_x, V1_wl, V1_wr, V1_b]
  have hβ : (fun q : Fin 128 => shapeCast S1x128 (m ((c.tc : Thread nD τ).loc main_arg3)) shapeCasts_S128_S1x128 (ix2 (0 : Fin 1) q))
      = fun q => (m ((c.tc : Thread nD τ).loc main_arg3)) (ix1 q) := funext fun q => shapeCast_a_1a_apply _ _ 0 q
  rw [hβ]

theorem W2_src (c : Dev nD) : W2 m ρ c (Proc.devRef .tc main_v1) = srcOf (m ((c.tc : Thread nD τ).loc main_arg1)) := by
  refine (W2_of_ne m ρ c main_v1 (by decide)).trans ?_
  show StableHlo.after hostOps0 (W0 m ρ c) (Proc.devRef .tc main_v1) = _
  after_results
  rfl

theorem W2_dst (c : Dev nD) : W2 m ρ c (Proc.devRef .tc main_v3) = dstOf (m ((c.tc : Thread nD τ).loc main_arg1)) := by
  refine (W2_of_ne m ρ c main_v3 (by decide)).trans ?_
  show StableHlo.after hostOps0 (W0 m ρ c) (Proc.devRef .tc main_v3) = _
  after_results
  rfl

theorem W2_arg5 (c : Dev nD) : W2 m ρ c (Proc.devRef .tc main_arg5) = (m ((c.tc : Thread nD τ).loc main_arg5)) := by
  refine (W2_of_ne m ρ c main_arg5 (by decide)).trans ?_
  show StableHlo.after hostOps0 (W0 m ρ c) (Proc.devRef .tc main_arg5) = _
  after_results

theorem W2_arg6 (c : Dev nD) : W2 m ρ c (Proc.devRef .tc main_arg6) = (m ((c.tc : Thread nD τ).loc main_arg6)) := by
  refine (W2_of_ne m ρ c main_arg6 (by decide)).trans ?_
  show StableHlo.after hostOps0 (W0 m ρ c) (Proc.devRef .tc main_arg6) = _
  after_results

theorem W2_arg7 (c : Dev nD) : W2 m ρ c (Proc.devRef .tc main_arg7) = (m ((c.tc : Thread nD τ).loc main_arg7)) := by
  refine (W2_of_ne m ρ c main_arg7 (by decide)).trans ?_
  show StableHlo.after hostOps0 (W0 m ρ c) (Proc.devRef .tc main_arg7) = _
  after_results

theorem W2_arg8 (c : Dev nD) : W2 m ρ c (Proc.devRef .tc main_arg8) = (m ((c.tc : Thread nD τ).loc main_arg8)) := by
  refine (W2_of_ne m ρ c main_arg8 (by decide)).trans ?_
  show StableHlo.after hostOps0 (W0 m ρ c) (Proc.devRef .tc main_arg8) = _
  after_results

theorem W2_arg9 (c : Dev nD) : W2 m ρ c (Proc.devRef .tc main_arg9) = (m ((c.tc : Thread nD τ).loc main_arg9)) := by
  refine (W2_of_ne m ρ c main_arg9 (by decide)).trans ?_
  show StableHlo.after hostOps0 (W0 m ρ c) (Proc.devRef .tc main_arg9) = _
  after_results

/-! ## The second stretch: what the second region finds -/

set_option maxHeartbeats 4000000 in
theorem V3_agg (c : Dev nD) :
    V3 m ρ c main_v45
      = segMean (srcOf (m ((c.tc : Thread nD τ).loc main_arg1))) (dstOf (m ((c.tc : Thread nD τ).loc main_arg1))) (W2 m ρ c (Proc.devRef .tc main_v26)) := by
  show StableHlo.after hostOps1 (W2 m ρ c) (Proc.devRef .tc main_v45) = _
  after_results_simp
  rw [W2_src, W2_dst]
  rfl

theorem V3_h (c : Dev nD) : V3 m ρ c main_v26 = W2 m ρ c (Proc.devRef .tc main_v26) := by
  show StableHlo.after hostOps1 (W2 m ρ c) (Proc.devRef .tc main_v26) = _
  after_results

theorem V3_wl (c : Dev nD) :
    V3 m ρ c main_v46 = transpose S128x128 [1, 0] (m ((c.tc : Thread nD τ).loc main_arg5)) transposes_S128x128_S128x128_1_0 := by
  show StableHlo.after hostOps1 (W2 m ρ c) (Proc.devRef .tc main_v46) = _
  after_results
  rw [W2_arg5]

theorem V3_wr (c : Dev nD) :
    V3 m ρ c main_v47 = transpose S128x128 [1, 0] (m ((c.tc : Thread nD τ).loc main_arg7)) transposes_S128x128_S128x128_1_0 := by
  show StableHlo.after hostOps1 (W2 m ρ c) (Proc.devRef .tc main_v47) = _
  after_results
  rw [W2_arg7]

theorem V3_b (c : Dev nD) : V3 m ρ c main_v48 = shapeCast S1x128 (m ((c.tc : Thread nD τ).loc main_arg6)) shapeCasts_S128_S1x128 := by
  show StableHlo.after hostOps1 (W2 m ρ c) (Proc.devRef .tc main_v48) = _
  after_results
  rw [W2_arg6]
  rfl

theorem V3_wlin (c : Dev nD) :
    V3 m ρ c main_v49 = transpose S128x64 [1, 0] (m ((c.tc : Thread nD τ).loc main_arg8)) transposes_S64x128_S128x64_1_0 := by
  show StableHlo.after hostOps1 (W2 m ρ c) (Proc.devRef .tc main_v49) = _
  after_results
  rw [W2_arg8]

theorem V3_blin (c : Dev nD) : V3 m ρ c main_v50 = shapeCast S1x64 (m ((c.tc : Thread nD τ).loc main_arg9)) shapeCasts_S64_S1x64 := by
  show StableHlo.after hostOps1 (W2 m ρ c) (Proc.devRef .tc main_v50) = _
  after_results
  rw [W2_arg9]
  rfl

/-! ## After the second region -/

/-- The program's result array, at the last boundary, is the network of the arguments as launched. -/
theorem out_eq (c : Dev nD) :
    W4 m ρ c (Proc.devRef .tc main_v51)
      = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W4_arr m ρ c 7).trans ((Cert.SageRegion1.final (V3 m ρ) c).trans ?_)
  unfold Cert.SageRegion1.G Cert.SageRegion1.H net head layer
  rw [V3_agg, V3_h, V3_wl, V3_wr, V3_b, V3_wlin, V3_blin, hidden_eq]
  have hβ : (fun q : Fin 128 => shapeCast S1x128 (m ((c.tc : Thread nD τ).loc main_arg6)) shapeCasts_S128_S1x128 (ix2 (0 : Fin 1) q))
      = fun q => (m ((c.tc : Thread nD τ).loc main_arg6)) (ix1 q) := funext fun q => shapeCast_a_1a_apply _ _ 0 q
  have hγ : (fun q : Fin 64 => shapeCast S1x64 (m ((c.tc : Thread nD τ).loc main_arg9)) shapeCasts_S64_S1x64 (ix2 (0 : Fin 1) q))
      = fun q => (m ((c.tc : Thread nD τ).loc main_arg9)) (ix1 q) := funext fun q => shapeCast_a_1a_apply _ _ 0 q
  rw [hβ, hγ]

end Cert.SageValue

end
-- ==== Proof.lean ====
/-
  The kernel is a two-layer graph network: from node features x (50000 nodes, 128 features) and an edge list (800000
  edges), each layer forms the mean of the features of a node's in-neighbours (the mean aggregate), multiplies the
  aggregate and the features by two weight matrices, adds a bias and takes the maximum with zero; a last linear map takes
  the 128 hidden features to 64 outputs. The aggregation runs as host operations; the dense part of each layer (the second
  fused with the last map) runs as a kernel over 25 blocks of 2000 rows, with its operands rounded to bf16 on the way into
  the products. The reference computes the same network with host operations only.

  At the ideal values the rounding is the identity and every product is the exact sum, so both programs compute ONE
  function of the ten arguments, `Cert.SageModel.net`:
    * the reference's composed term is that function (`Cert.SageModel.res_eq_net`): its two layers are the host's spelling of
      the layer, which adds the bias BEFORE the second product where the kernel adds it after — the one law used is that
      addition of extended reals is commutative and associative, and it needs no summand to be finite, so the precondition
      is never opened;
    * the kernel's result array is that function (`Cert.SageValue.out_eq`): each region's array is the layer of the arrays
      the region reads, because a row of the layer depends only on the same row of its inputs and the 25 blocks of rows
      cover the array; between the regions the host operations are the same aggregation.
  The aggregation itself is never opened: it is the same operations on both sides.
  The ideal pass rewrote nothing, so the kernel's idealization is its own text read at the ideal values.
-/
import proofs.«146561_j61065845015011_1_alg».proof.Defs
import proofs.«146561_j61065845015011_1_alg».proof.Proof.Gen.Kernel
import proofs.«146561_j61065845015011_1_alg».proof.Proof.Gen.Kernel.Skeleton
import proofs.«146561_j61065845015011_1_alg».proof.Proof.PatchedKernelLaunch
import proofs.«146561_j61065845015011_1_alg».proof.Proof.Gen.Kernel.Points
import proofs.«146561_j61065845015011_1_alg».proof.Proof.PatchedKernelFrame
import proofs.«146561_j61065845015011_1_alg».proof.Proof.Gen.KernelIdeal
import proofs.«146561_j61065845015011_1_alg».proof.Proof.Gen.KernelIdeal.Skeleton
import proofs.«146561_j61065845015011_1_alg».proof.Proof.PatchedKernelIdealLaunch
import proofs.«146561_j61065845015011_1_alg».proof.Proof.Gen.KernelIdeal.Points
import proofs.«146561_j61065845015011_1_alg».proof.Proof.PatchedKernelIdealFrame
import proofs.«146561_j61065845015011_1_alg».proof.Proof.Gen.ReferenceIdeal
import proofs.«146561_j61065845015011_1_alg».proof.Proof.Gen.Pre_finite_inputs
import proofs.«146561_j61065845015011_1_alg».proof.Proof.Gen.ReferenceIdeal.Run
import proofs.«146561_j61065845015011_1_alg».proof.Proof.SageModel
import proofs.«146561_j61065845015011_1_alg».proof.Proof.SageRunNamed
import proofs.«146561_j61065845015011_1_alg».proof.Proof.SageValue
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.GenP.frame m ρ

/-- The idealized kernel runs and leaves its arguments unchanged. -/
theorem frame_kernelIdeal : Cert.frame_KernelIdeal := fun m ρ _ => Cert.KernelIdeal.GenP.frame m ρ

/-- The idealized reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the network of those arguments in their
    result arrays. -/
theorem algebraic : Cert.algebraic_KernelIdeal_ReferenceIdeal := by
  intro m ρ m' ρ' _ hagree
  refine ⟨fun c => Cert.SageModel.net (m ((c.tc : Thread Cert.KernelIdeal.nD Cert.KernelIdeal.τ).loc Cert.KernelIdeal.main_arg0)) (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      (m ((c.tc : Thread Cert.KernelIdeal.nD Cert.KernelIdeal.τ).loc Cert.KernelIdeal.main_arg6)) (m ((c.tc : Thread Cert.KernelIdeal.nD Cert.KernelIdeal.τ).loc Cert.KernelIdeal.main_arg7))
      (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.SageValue.out_eq m ρ c), (h c).2⟩)
      (Cert.SageRunNamed.run_named (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.SageModel.res_eq_net, h0, h1, h2, h3, h4, h5, h6, h7, h8, h9]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
